-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 20
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S1x128, .f32⟩
  | .hbm, ⟨19, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibDenseLayer.lean ====
/-
  A dense layer read at a row and a column. For an M x K array x, a K x N array w and a 1 x N row b, the entry (r, c) of
  act (x · w + b) is act ((∑ k, x (r, k) * w (k, c)) + b (0, c)). Two programs compute it: a block body — a matrix-unit
  product of the operands (rounded to a narrower format on the way, which changes nothing at the extended reals) into a
  zero accumulator, plus the row broadcast down the rows — and the host's dot_general plus the bias vector broadcast in
  two steps, [N] → [1, N] → [M, N]. Both are read here at (r, c) as that one expression. A zero row changes nothing:
  adding the real number 0 to an extended real is the identity, infinite or not.
-/
import proofs.«104394_j44659069944171_1_alg».proof.Proof.LibDotIx2
import Idealize.ShloMosaic.Lib.Pipeline.Value

noncomputable section

open scoped BigOperators

namespace Idealize.ShloMosaic.ValueIdx

open Idealize.ShloMosaic

/-- The entry (r, c) of act (x · w + b), b a single row. -/
def denseRC {M K N : ℕ} (act : EReal → EReal) (x : (⟨2, ![M, K]⟩ : Shape).Idx → EReal) (w : (⟨2, ![K, N]⟩ : Shape).Idx → EReal)
    (b : (⟨2, ![1, N]⟩ : Shape).Idx → EReal) (r : Fin M) (c : Fin N) : EReal :=
  act ((∑ k : Fin K, x (ix2 r k) * w (ix2 k c)) + b (ix2 (0 : Fin 1) c))

/-- A 1 x N row broadcast down M rows, read at (r, c): the row's entry c. -/
theorem rowBroadcastTo_ix2 {M N : ℕ} {α : Type} (b : (⟨2, ![1, N]⟩ : Shape).Idx → α)
    (h : (⟨2, ![1, N]⟩ : Shape).Broadcasts (⟨2, ![M, N]⟩ : Shape)) (r : Fin M) (c : Fin N) :
    broadcastTo (⟨2, ![M, N]⟩ : Shape) b h (ix2 r c) = b (ix2 (0 : Fin 1) c) := by
  refine broadcastTo_apply b h (ix2 r c) (ix2 (0 : Fin 1) c) fun a => ?_
  match a with
  | ⟨0, _⟩ => show (0 : ℕ) = if (1 : ℕ) = 1 then 0 else _; rw [if_pos rfl]
  | ⟨1, _⟩ =>
    show c.val = if N = 1 then 0 else c.val
    split_ifs with h1
    · have := c.isLt; omega
    · rfl

/-- The block body's value at (r, c): the product into zeros plus the broadcast row. -/
theorem denseBlock_apply {M K N : ℕ} {d : DotDims (⟨2, ![M, K]⟩ : Shape) (⟨2, ![K, N]⟩ : Shape) (⟨2, ![M, N]⟩ : Shape)}
    (hd : PlainDot d) (x : FVec Ideal (⟨2, ![M, K]⟩ : Shape) .f32) (w : FVec Ideal (⟨2, ![K, N]⟩ : Shape) .f32)
    (b : FVec Ideal (⟨2, ![1, N]⟩ : Shape) .f32) (h1 : FTy.bf16.bits < FTy.f32.bits) (h2 : FTy.bf16.bits < FTy.f32.bits)
    (hb : (⟨2, ![1, N]⟩ : Shape).Broadcasts (⟨2, ![M, N]⟩ : Shape)) (r : Fin M) (c : Fin N) :
    addf (matmul d none (truncf .bf16 x h1) (truncf .bf16 w h2) (constant (⟨2, ![M, N]⟩ : Shape) .f32 0x00000000#32))
        (broadcastTo (⟨2, ![M, N]⟩ : Shape) b hb) (ix2 r c)
      = (∑ k : Fin K, x (ix2 r k) * w (ix2 k c)) + b (ix2 (0 : Fin 1) c) := by
  show FloatOps.matmul d none (truncf .bf16 x h1) (truncf .bf16 w h2) (constant (⟨2, ![M, N]⟩ : Shape) .f32 0x00000000#32) (ix2 r c)
      + broadcastTo (⟨2, ![M, N]⟩ : Shape) b hb (ix2 r c) = _
  rw [matmul_zero_ix2_any hd, rowBroadcastTo_ix2]
  rfl

/-- The host's product at (r, c) is the dense entry with the identity and a zero row. -/
theorem dotGeneral_eq_denseRC {M K N : ℕ} {d : DotDims (⟨2, ![M, K]⟩ : Shape) (⟨2, ![K, N]⟩ : Shape) (⟨2, ![M, N]⟩ : Shape)}
    (hd : PlainDot d) (x : FVec Ideal (⟨2, ![M, K]⟩ : Shape) .f32) (w : FVec Ideal (⟨2, ![K, N]⟩ : Shape) .f32)
    (z : (⟨2, ![1, N]⟩ : Shape).Idx → EReal) (hz : ∀ j, z j = 0) (r : Fin M) (c : Fin N) :
    Host.dotGeneral d none x w (ix2 r c) = denseRC id x w z r c := by
  unfold denseRC
  rw [hz, add_zero]
  exact dotGeneral_ix2_any hd none _ x w r c

end Idealize.ShloMosaic.ValueIdx

end
-- ==== Proof.LibColumnRowRead.lean ====
/-
  Reading small layout changes of a vector at a pair of coordinates.
  * A length-a vector reshaped to an [a, 1] column, read at (p, 0), is the vector at p; reshaped to a [1, b] row, read at
    (0, q), it is the vector at q (the row-major position is the same).
  * A length-a vector broadcast to an [a, 1] column and then along b lanes, read at (p, c), is the vector at p (a ≠ 1, so
    the row axis is not a unit axis); a length-b vector broadcast to a [1, b] row and then along a rows, read at (p, c),
    is the vector at c (b ≠ 1).
-/
import Idealize.ShloMosaic.Lib.ValueIdx
import Idealize.ShloMosaic.Lib.Pipeline.Value

namespace Cert.Gcn.ColumnRowRead

open Idealize.ShloMosaic Idealize.ShloMosaic.ValueIdx

variable {α : Type}

/-- A vector as a column, read at (p, 0). -/
theorem column_apply {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A vector as a row, read at (0, q). -/
theorem row_apply {b : ℕ} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) :=
  shapeCast_apply v h (ix2 (0 : Fin 1) q) (ix1 q) (by
    rw [Shape.rowMajor_val_one, Shape.rowMajor_val_two]
    show q.val = 0 * b + q.val
    omega)

/-- A vector broadcast to a column and then along the lanes, read at (p, c). -/
theorem bcast_col_apply {a b : ℕ} (ha : a ≠ 1) (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 v) (ix2 p c) = v (ix1 p) := by
  rw [broadcastInDim_apply (![0, 1] : Fin 2 → Fin 2) h2 _ (ix2 p c) (ix2 p (0 : Fin 1)) (fun ax => by
    match ax with
    | ⟨0, _⟩ => show p.val = if a = 1 then 0 else p.val; rw [if_neg ha]
    | ⟨1, _⟩ => rfl)]
  exact broadcastInDim_apply (![0] : Fin 1 → Fin 2) h1 v (ix2 p (0 : Fin 1)) (ix1 p) (fun ax => by
    match ax with
    | ⟨0, _⟩ => show p.val = if a = 1 then 0 else p.val; rw [if_neg ha])

/-- A vector broadcast to a row and then along the rows, read at (p, c). -/
theorem bcast_row_apply {a b : ℕ} (hb : b ≠ 1) (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![1, b]⟩ (![1] : Fin 1 → Fin 2) h1 v) (ix2 p c) = v (ix1 c) := by
  rw [broadcastInDim_apply (![0, 1] : Fin 2 → Fin 2) h2 _ (ix2 p c) (ix2 (0 : Fin 1) c) (fun ax => by
    match ax with
    | ⟨0, _⟩ => rfl
    | ⟨1, _⟩ => show c.val = if b = 1 then 0 else c.val; rw [if_neg hb])]
  exact broadcastInDim_apply (![1] : Fin 1 → Fin 2) h1 v (ix2 (0 : Fin 1) c) (ix1 c) (fun ax => by
    match ax with
    | ⟨0, _⟩ => show c.val = if b = 1 then 0 else c.val; rw [if_neg hb])

end Cert.Gcn.ColumnRowRead
-- ==== Proof.LibDenseHost.lean ====
/-
  The host's spelling of a dense layer read at a row and a column: the dot_general of x and w, plus the bias vector
  broadcast in two steps [N] → [1, N] → [M, N], under an activation. At (r, c) it is the dense entry
  act ((∑ k, x (r, k) * w (k, c)) + b c) with the bias read as the 1 x N row that a reshape of the vector gives: the
  broadcast reads the vector at c, and so does the reshaped row at (0, c).
-/
import proofs.«104394_j44659069944171_1_alg».proof.Proof.LibDenseLayer
import proofs.«104394_j44659069944171_1_alg».proof.Proof.LibColumnRowRead

noncomputable section

open scoped BigOperators

namespace Idealize.ShloMosaic.ValueIdx

open Idealize.ShloMosaic Cert.Gcn.ColumnRowRead

/-- The host's dense layer at (r, c) is the dense entry over the reshaped bias row. -/
theorem hostDense_eq_denseRC {M K N : ℕ} {d : DotDims (⟨2, ![M, K]⟩ : Shape) (⟨2, ![K, N]⟩ : Shape) (⟨2, ![M, N]⟩ : Shape)}
    (hd : PlainDot d) (hN : N ≠ 1) (act : EReal → EReal)
    (x : FVec Ideal (⟨2, ![M, K]⟩ : Shape) .f32) (w : FVec Ideal (⟨2, ![K, N]⟩ : Shape) .f32) (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) (r : Fin M) (c : Fin N) :
    act (Host.dotGeneral d none x w (ix2 r c)
        + broadcastInDim ⟨2, ![M, N]⟩ (![0, 1] : Fin 2 → Fin 2) h2 (broadcastInDim ⟨2, ![1, N]⟩ (![1] : Fin 1 → Fin 2) h1 b) (ix2 r c))
      = denseRC act x w (shapeCast ⟨2, ![1, N]⟩ b hc) r c := by
  unfold denseRC
  rw [bcast_row_apply hN b h1 h2 r c, row_apply b hc c]
  exact congrArg (fun s => act (s + b (ix1 c))) (dotGeneral_ix2_any hd none _ x w r c)

/-- The same with the host's tanh around it, in the host's own spelling. -/
theorem hostTanhDense_eq_denseRC {M K N : ℕ} {d : DotDims (⟨2, ![M, K]⟩ : Shape) (⟨2, ![K, N]⟩ : Shape) (⟨2, ![M, N]⟩ : Shape)}
    (hd : PlainDot d) (hN : N ≠ 1)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) (r : Fin M) (c : Fin N) :
    Host.tanh (addf (Host.dotGeneral d none x w)
        (broadcastInDim ⟨2, ![M, N]⟩ (![0, 1] : Fin 2 → Fin 2) h2 (broadcastInDim ⟨2, ![1, N]⟩ (![1] : Fin 1 → Fin 2) h1 b))) (ix2 r c)
      = denseRC Ideal.tanh x w (shapeCast ⟨2, ![1, N]⟩ b hc) r c :=
  hostDense_eq_denseRC hd hN Ideal.tanh x w b h1 h2 hc r c

/-- And bare, for the last layer. -/
theorem hostBareDense_eq_denseRC {M K N : ℕ} {d : DotDims (⟨2, ![M, K]⟩ : Shape) (⟨2, ![K, N]⟩ : Shape) (⟨2, ![M, N]⟩ : Shape)}
    (hd : PlainDot d) (hN : N ≠ 1)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) (r : Fin M) (c : Fin N) :
    addf (Host.dotGeneral d none x w)
        (broadcastInDim ⟨2, ![M, N]⟩ (![0, 1] : Fin 2 → Fin 2) h2 (broadcastInDim ⟨2, ![1, N]⟩ (![1] : Fin 1 → Fin 2) h1 b)) (ix2 r c)
      = denseRC id x w (shapeCast ⟨2, ![1, N]⟩ b hc) r c :=
  hostDense_eq_denseRC hd hN id x w b h1 h2 hc r c

end Idealize.ShloMosaic.ValueIdx

end
-- ==== Proof.LayerSpec.lean ====
/-
  One graph-convolution layer as a function of the aggregated features.

  With agg the M x K array of features summed into each destination node, w a K x N weight array and b a single row of
  N biases, the layer's output at (r, c) is

      relu ((∑ k, agg (r, k) * w (k, c)) + b (0, c)),

  where relu s = max s 0 on the extended reals. This module states that array once; the two programs are each shown to
  compute it, the kernel block of rows by block of rows and the host in one product.
-/
import proofs.«104394_j44659069944171_1_alg».proof.Proof.LibDenseHost

noncomputable section

open scoped BigOperators

namespace Cert.GraphConv

open Idealize.ShloMosaic Idealize.ShloMosaic.ValueIdx

/-- The rectifier on the extended reals: the larger of s and the number the all-zero word denotes. -/
def relu (s : EReal) : EReal := max s (Ideal.ofBits .f32 0x00000000#32)

/-- The layer's output array: entry (r, c) is relu ((∑ k, agg (r, k) * w (k, c)) + b (0, c)). -/
def layer {M K N : ℕ} (agg : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => denseRC relu agg w b (j 0) (j 1)

/-- The layer read at a row and a column. -/
theorem layer_ix2 {M K N : ℕ} (agg : (⟨2, ![M, K]⟩ : Shape).Idx → EReal) (w : (⟨2, ![K, N]⟩ : Shape).Idx → EReal)
    (b : (⟨2, ![1, N]⟩ : Shape).Idx → EReal) (r : Fin M) (c : Fin N) :
    layer agg w b (ix2 r c) = denseRC relu agg w b r c := rfl

/-- A row of the layer's output depends only on the same row of agg: if two feature arrays agree on row r' of one and
    row r of the other, the outputs agree there. -/
theorem denseRC_row_congr {M M' K N : ℕ} (act : EReal → EReal) (x : (⟨2, ![M, K]⟩ : Shape).Idx → EReal)
    (x' : (⟨2, ![M', K]⟩ : Shape).Idx → EReal) (w : (⟨2, ![K, N]⟩ : Shape).Idx → EReal)
    (b : (⟨2, ![1, N]⟩ : Shape).Idx → EReal) (r : Fin M) (r' : Fin M') (c : Fin N)
    (h : ∀ k : Fin K, x (ix2 r k) = x' (ix2 r' k)) :
    denseRC act x w b r c = denseRC act x' w b r' c := by
  unfold denseRC
  rw [Finset.sum_congr rfl fun k _ => by rw [h k]]

end Cert.GraphConv

end
-- ==== Proof.BlockEntry.lean ====
/-
  The kernel body's stored value read at a row and a column.

  On one block of 5000 rows the body multiplies the block x (5000 x 128) by the whole weight array w (128 x 128) into a
  zero accumulator, adds the bias row b (1 x 128) broadcast down the rows, and takes the maximum with zero. The operands
  are rounded to a narrower format before the product, which is the identity on the extended reals. So the stored value at
  (r, c) is relu ((∑ k, x (r, k) * w (k, c)) + b (0, c)): the layer's entry, with the block in place of the whole array.
-/
import proofs.«104394_j44659069944171_1_alg».proof.Proof.Gen.KernelIdeal.Skeleton
import proofs.«104394_j44659069944171_1_alg».proof.Proof.LayerSpec

noncomputable section

open scoped BigOperators

namespace Cert.GraphConv

open Idealize.ShloMosaic Idealize.ShloMosaic.ValueIdx Cert.KernelIdeal Cert.KernelIdeal.Gen

/-- The block product contracts the block's columns with the weights' rows and batches nothing. -/
theorem blockDot_plain : PlainDot (M := 5000) (K := 128) (N := 128) dot_S5000x128_S128x128_S5000x128_1_0_0_1_n_n where
  rank := rfl
  size := rfl
  l0 := fun j q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  l1 := fun j q => dot_S5000x128_S128x128_S5000x128_1_0_0_1_n_n.lhsIdx_val_of_single rfl j q
  r0 := fun j q => dot_S5000x128_S128x128_S5000x128_1_0_0_1_n_n.rhsIdx_val_of_single rfl j q
  r1 := fun j q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The body's stored value at (r, c) is the dense entry of the block, the weights and the bias row under relu. -/
theorem blockBody_ix2 (x : Vec Ideal S5000x128 .f32) (w : Vec Ideal S128x128 .f32) (b : Vec Ideal S1x128 .f32)
    (r : Fin 5000) (c : Fin 128) :
    k0_pay1 (F := Ideal) x w b (ix2 r c) = denseRC relu x w b r c := by
  unfold k0_pay1
  rw [shapeCast_self, shapeCast_self]
  exact congrArg relu (denseBlock_apply blockDot_plain x w b bitsLt_bf16_f32 bitsLt_bf16_f32 broadcasts_S1x128_S5000x128 r c)

/-- The same against the layer of the whole arrays: when row p of the block is row r of the aggregated features and the
    block's weights and bias row are the whole ones, the stored value at (p, c) is the layer's entry at (r, c). -/
theorem blockBody_eq_layer (x : Vec Ideal S5000x128 .f32) (w : Vec Ideal S128x128 .f32) (b : Vec Ideal S1x128 .f32)
    (agg : S50000x128.Idx → EReal) (W : S128x128.Idx → EReal) (B : S1x128.Idx → EReal)
    (p : Fin 5000) (r : Fin 50000) (c : Fin 128)
    (hrow : ∀ k : Fin 128, x (ix2 p k) = agg (ix2 r k)) (hw : w = W) (hb : b = B) :
    k0_pay1 (F := Ideal) x w b (ix2 p c) = layer (M := 50000) (K := 128) (N := 128) agg W B (ix2 r c) := by
  subst hw hb
  rw [layer_ix2, blockBody_ix2]
  exact denseRC_row_congr relu x agg w b p r c hrow

end Cert.GraphConv

end
-- ==== Proof.RegionInputs.lean ====
/-
  What the kernel's region finds in its first and third operands.

  Before the region the host gathers the source nodes' feature rows along the edges and sums them into the destination
  nodes (negative source indices wrapped by the node count first), and lays the bias vector out as a single row. The
  region therefore finds, in its first operand, the aggregated features as one fixed function of the feature array and the
  two index arrays, and in its third operand the bias vector reshaped to 1 x 128. Nothing here looks inside the gather or
  the scatter: the reference computes the very same term.
-/
import proofs.«104394_j44659069944171_1_alg».proof.Proof.Gen.KernelIdeal.Frame
import Idealize.ShloMosaic.Lib.StableHlo.Run
import Idealize.ShloMosaic.PureOps.Ideal

noncomputable section

namespace Cert.GraphConv

open Idealize.ShloMosaic Idealize.ShloMosaic.TcCoe Idealize.SL.Sem Idealize.ShloMosaic.StableHlo
open Cert.KernelIdeal Cert.KernelIdeal.Gen

/-- The aggregated features: row d is the sum, over the edges e with destination d, of the feature row of e's source. -/
def aggregated (x0 : (⟨S50000x128, .f32⟩ : BufTy).Contents (Elt Ideal)) (x1 x2 : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (Host.gather gather_S50000x128_S800000x1_S800000x128_1_0_n_n_0_1_1128 x0
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

variable (m : (ℓ : Loc nD τ sig) → Buf (Elt Ideal) ℓ)

/-- The region's first operand holds the aggregated features of the argument arrays. -/
theorem found_aggregated (c : Dev nD) :
    (V m c main_v9 : S50000x128.Idx → EReal)
      = aggregated (m ((c : Thread nD τ).loc main_arg0)) (m ((c : Thread nD τ).loc main_arg1)) (m ((c : Thread nD τ).loc main_arg2)) := by
  dsimp only [V, hostOps0]
  after_results
  rfl

/-- The region's third operand holds the bias vector as one row. -/
theorem found_biasRow (c : Dev nD) :
    (V m c main_v10 : S1x128.Idx → EReal) = shapeCast S1x128 (m ((c : Thread nD τ).loc main_arg4)) shapeCasts_S128_S1x128 := by
  dsimp only [V, hostOps0]
  after_results
  rfl

end Cert.GraphConv

end
-- ==== Proof.BlocksToArray.lean ====
/-
  From the ten blocks to the whole output array.

  Grid point t works on rows 5000 t … 5000 t + 4999: its first operand's block is those rows of the aggregated features,
  the weights and the bias row are whole at every point, and it writes back those rows of the output. A row of the
  layer's output depends only on the same row of the aggregated features, so what point t writes back is exactly block t
  of the layer's output array; the ten blocks tile the 50000 rows, so after the run the output array is the layer's.
-/
import proofs.«104394_j44659069944171_1_alg».proof.Proof.Gen.KernelIdeal.Value
import proofs.«104394_j44659069944171_1_alg».proof.Proof.BlockEntry
import proofs.«104394_j44659069944171_1_alg».proof.Proof.RegionInputs

set_option maxRecDepth 16384

noncomputable section

namespace Cert.GraphConv

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The block indices over the ten points: the features' block moves with the output's down the rows; the weights' and
    the bias row's stay at the origin; the output's column block is 0 and its row block at most 9. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem index_onto : ∀ q : Fin 10, ∃ t : Fin cfg0.N, win0_3.index t = ![q.val, 0] :=
  (by decide +kernel : ∀ q : Fin 10, ∃ t : Fin grid0.N, win0_3.index t = ![q.val, 0])

/-- Row p of block number n, n at most 9, is a row of the 50000. -/
theorem row_lt (n : ℕ) (p : Fin 5000) (h : n ≤ 9) : n * 5000 + p.val < 50000 := by
  have := p.isLt; omega

/-- The write-back of the output's block moves all of it: no block overhangs the array. -/
theorem cut_out_apply {α : Type} (t : Fin cfg0.N) (X : S5000x128.Idx → α) (p : Fin 5000) (q : Fin 128) :
    (win0 3).cut (grid0.coords t) X (ix2 p q) = X (ix2 p q) := by
  show X ((win0 3).xinj (grid0.coords t) (ix2 p q)) = X (ix2 p q)
  exact congrArg X (funext fun a => Fin.ext rfl)

/-- Any array read through point t's output block at (p, q): the array at row 5000 n + p, n the point's row block, and
    column q. -/
theorem read_out_apply (t : Fin cfg0.N) (G : S50000x128.Idx → EReal) (p : Fin 5000) (q : Fin 128)
    (h6 : win0_3.index t (1 : Fin 2) = 0) (h7 : win0_3.index t (0 : Fin 2) ≤ 9) :
    ((cfg0.win 3).blk t).view.read (Elt Ideal) G (ix2 p q)
      = G (ix2 (⟨win0_3.index t (0 : Fin 2) * 5000 + p.val, row_lt _ p h7⟩ : Fin 50000) q) := by
  rw [View.read_apply]
  show G (((cfg0.win 3).blk t).view.emb (ix2 p q)) = _
  refine congrArg G (funext fun a => Fin.ext ?_)
  match a with
  | ⟨0, _⟩ => show win0_3.index t (0 : Fin 2) * 5000 + 1 * p.val = win0_3.index t (0 : Fin 2) * 5000 + p.val; omega
  | ⟨1, _⟩ => show win0_3.index t (1 : Fin 2) * 128 + 1 * q.val = q.val; rw [h6]; omega

/-- Any array read through point t's first input block at (p, k): the array at row 5000 n + p and column k. -/
theorem read_features_apply (t : Fin cfg0.N) (A : S50000x128.Idx → EReal) (p : Fin 5000) (k : Fin 128)
    (h0 : win0_0.index t (0 : Fin 2) = win0_3.index t (0 : Fin 2)) (h1 : win0_0.index t (1 : Fin 2) = 0)
    (h7 : win0_3.index t (0 : Fin 2) ≤ 9) :
    ((cfg0.win 0).blk t).view.read (Elt Ideal) A (ix2 p k)
      = A (ix2 (⟨win0_3.index t (0 : Fin 2) * 5000 + p.val, row_lt _ p h7⟩ : Fin 50000) k) := by
  rw [View.read_apply]
  show A (((cfg0.win 0).blk t).view.emb (ix2 p k)) = _
  refine congrArg A (funext fun a => Fin.ext ?_)
  match a with
  | ⟨0, _⟩ => show win0_0.index t (0 : Fin 2) * 5000 + 1 * p.val = win0_3.index t (0 : Fin 2) * 5000 + p.val; rw [h0]; omega
  | ⟨1, _⟩ => show win0_0.index t (1 : Fin 2) * 128 + 1 * k.val = k.val; rw [h1]; omega

/-- Any 128 x 128 array read through point t's second input block is the array: the block is all of it. -/
theorem read_weights (t : Fin cfg0.N) (A : S128x128.Idx → EReal)
    (h2 : win0_1.index t (0 : Fin 2) = 0) (h3 : win0_1.index t (1 : Fin 2) = 0) :
    ((cfg0.win 1).blk t).view.read (Elt Ideal) A = A := by
  refine funext fun (z : S128x128.Idx) => ?_
  rw [View.read_apply]
  show A (((cfg0.win 1).blk t).view.emb z) = A z
  refine congrArg A (funext fun a => Fin.ext ?_)
  match a with
  | ⟨0, _⟩ => show win0_1.index t (0 : Fin 2) * 128 + 1 * (z 0).val = (z 0).val; rw [h2]; omega
  | ⟨1, _⟩ => show win0_1.index t (1 : Fin 2) * 128 + 1 * (z 1).val = (z 1).val; rw [h3]; omega

/-- Any 1 x 128 row read through point t's third input block is the row. -/
theorem read_biasRow (t : Fin cfg0.N) (A : S1x128.Idx → EReal)
    (h4 : win0_2.index t (0 : Fin 2) = 0) (h5 : win0_2.index t (1 : Fin 2) = 0) :
    ((cfg0.win 2).blk t).view.read (Elt Ideal) A = A := by
  refine funext fun (z : S1x128.Idx) => ?_
  rw [View.read_apply]
  show A (((cfg0.win 2).blk t).view.emb z) = A z
  refine congrArg A (funext fun a => Fin.ext ?_)
  match a with
  | ⟨0, _⟩ => show win0_2.index t (0 : Fin 2) * 1 + 1 * (z 0).val = (z 0).val; rw [h4]; omega
  | ⟨1, _⟩ => show win0_2.index t (1 : Fin 2) * 128 + 1 * (z 1).val = (z 1).val; rw [h5]; omega

/-- Row p of the features' block at point t is row 5000 n + p of the aggregated features the region finds. -/
theorem features_block_apply (c : Dev nD) (t : Fin cfg0.N) (p : Fin 5000) (k : Fin 128)
    (h0 : win0_0.index t (0 : Fin 2) = win0_3.index t (0 : Fin 2)) (h1 : win0_0.index t (1 : Fin 2) = 0)
    (h7 : win0_3.index t (0 : Fin 2) ≤ 9) :
    iblk m c 0 t (ix2 p k) = V m c main_v9 (ix2 (⟨win0_3.index t (0 : Fin 2) * 5000 + p.val, row_lt _ p h7⟩ : Fin 50000) k) := by
  unfold iblk
  exact read_features_apply t (V m c main_v9) p k h0 h1 h7

/-- The weights' block at every point is the whole weight array. -/
theorem weights_block (c : Dev nD) (t : Fin cfg0.N)
    (h2 : win0_1.index t (0 : Fin 2) = 0) (h3 : win0_1.index t (1 : Fin 2) = 0) :
    iblk m c 1 t = V m c main_arg3 := by
  unfold iblk
  exact read_weights t (V m c main_arg3) h2 h3

/-- The bias row's block at every point is the whole row. -/
theorem bias_block (c : Dev nD) (t : Fin cfg0.N)
    (h4 : win0_2.index t (0 : Fin 2) = 0) (h5 : win0_2.index t (1 : Fin 2) = 0) :
    iblk m c 2 t = V m c main_v10 := by
  unfold iblk
  exact read_biasRow t (V m c main_v10) h4 h5

/-- What point t writes back is block t of the layer's output over the arrays the region finds. -/
theorem flushed_eq (c : Dev nD) (t : Fin cfg0.N) :
    (dats m 0 c).flushed 3 t
      = ((cfg0.win 3).blk t).view.read (Elt Ideal)
          (layer (M := 50000) (K := 128) (N := 128) (V m c main_v9) (V m c main_arg3) (V m c main_v10)) := by
  rw [flushed3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨e0, e1, e2, e3, e4, e5, e6, e7⟩ := index_facts t
  refine funext fun (y : S5000x128.Idx) => ?_
  obtain ⟨p, q, rfl⟩ : ∃ (p : Fin 5000) (q : Fin 128), y = ix2 p q := ⟨y 0, y 1, eq_ix2 y⟩
  refine (cut_out_apply t (k0_pay1 (F := Ideal) (iblk m c 0 t) (iblk m c 1 t) (iblk m c 2 t)) p q).trans ?_
  refine Eq.trans ?_ (read_out_apply t
    (layer (M := 50000) (K := 128) (N := 128) (V m c main_v9) (V m c main_arg3) (V m c main_v10)) p q e6 e7).symm
  exact blockBody_eq_layer (iblk m c 0 t) (iblk m c 1 t) (iblk m c 2 t) (V m c main_v9) (V m c main_arg3) (V m c main_v10)
    p ⟨win0_3.index t (0 : Fin 2) * 5000 + p.val, row_lt _ p e7⟩ q
    (fun k => features_block_apply m c t p k e0 e1 e7) (weights_block m c t e2 e3) (bias_block m c t e4 e5)

/-- An index of the output array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v11).slice (win0_3.rect t)).set ↔ _
  rw [View.set_slice_whole, Rect.mem_set_unit]
  exact Iff.rfl

/-- Every index of the output array is in some point's block: row r is in block r / 5000. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the run the output array is the layer's output over the arrays the region finds. -/
theorem final (c : Dev nD) :
    (dats m 0 c).arrAt 3 cfg0.N = layer (M := 50000) (K := 128) (N := 128) (V m c main_v9) (V m c main_arg3) (V m c main_v10) :=
  (dats m 0 c).arrAt_eq_of_cover 3 _ (fun t _ => flushed_eq m c t) covered

/-- The kernel's run, read: the result array is the layer of the aggregated features, the weights and the bias row, as
    functions of the argument arrays; the arguments end unchanged. -/
theorem run : θ_run defs (onTc (τ := τ) (main (F := Ideal))) ⟨m, fun _ => 0, ρ⟩ fun r => ∀ c : Dev nD,
      r.2.mem ((c : Thread nD τ).loc main_v11)
        = layer (M := 50000) (K := 128) (N := 128)
            (aggregated (m ((c : Thread nD τ).loc main_arg0)) (m ((c : Thread nD τ).loc main_arg1)) (m ((c : Thread nD τ).loc main_arg2)))
            (m ((c : Thread nD τ).loc main_arg3))
            (shapeCast S1x128 (m ((c : Thread nD τ).loc main_arg4)) shapeCasts_S128_S1x128)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      rw [found_aggregated m c, found_biasRow m c, V_main_arg3 m c])), (h c).2⟩)
    (run_blocks m ρ)

end Cert.GraphConv

end
-- ==== Proof.HostEntry.lean ====
/-
  The reference's last stage read at a row and a column.

  After the aggregation the host multiplies agg (50000 x 128) by w (128 x 128) in one product, adds the bias vector
  broadcast in two steps [128] → [1, 128] → [50000, 128], and takes the maximum with a broadcast zero. At (r, c) that is
  relu ((∑ k, agg (r, k) * w (k, c)) + b c): the layer's entry with the bias vector read as a single row.
-/
import proofs.«104394_j44659069944171_1_alg».proof.Proof.Gen.ReferenceIdeal.Read
import proofs.«104394_j44659069944171_1_alg».proof.Proof.LayerSpec

noncomputable section

open scoped BigOperators

namespace Cert.GraphConv

open Idealize.ShloMosaic Idealize.ShloMosaic.ValueIdx Cert.ReferenceIdeal Cert.ReferenceIdeal.Gen Cert.ReferenceIdeal.Read

/-- The host's product contracts the features' columns with the weights' rows and batches nothing. -/
theorem hostDot_plain : PlainDot (M := 50000) (K := 128) (N := 128) dot_S50000x128_S128x128_S50000x128_1_0_0_1_n_n where
  rank := rfl
  size := rfl
  l0 := lhs_main_v10_0
  l1 := lhs_main_v10_1
  r0 := rhs_main_v10_0
  r1 := rhs_main_v10_1

/-- The broadcast zero read at any index is the number the all-zero word denotes. -/
theorem zeros_apply (j : S50000x128.Idx) :
    broadcastInDim S50000x128 ![] bcast_S_S50000x128 (constant (F := Ideal) S_ .f32 0x00000000#32) j = Ideal.ofBits .f32 0x00000000#32 :=
  broadcastInDim_apply _ bcast_S_S50000x128 (constant (F := Ideal) S_ .f32 0x00000000#32) j (fun a => a.elim0) (fun a => a.elim0)

/-- The host's product, bias and rectifier over ANY 50000 x 128 array agg, read at (r, c): the layer's entry. -/
theorem hostTail_ix2 (agg : FVec Ideal S50000x128 .f32) (x3 : FVec Ideal S128x128 .f32) (x4 : FVec Ideal S128 .f32)
    (hc : S128.ShapeCasts S1x128) (r : Fin 50000) (c : Fin 128) :
    maximumf (addf (Host.dotGeneral dot_S50000x128_S128x128_S50000x128_1_0_0_1_n_n none agg x3)
        (broadcastInDim S50000x128 ![0, 1] bcast_S1x128_S50000x128_0_1 (broadcastInDim S1x128 ![1] bcast_S128_S1x128_1 x4)))
      (broadcastInDim S50000x128 ![] bcast_S_S50000x128 (constant (F := Ideal) S_ .f32 0x00000000#32)) (ix2 r c)
      = denseRC relu agg x3 (shapeCast S1x128 x4 hc) r c := by
  rw [maximumf_apply, addf_apply, zeros_apply]
  exact hostDense_eq_denseRC hostDot_plain (by decide : (128 : ℕ) ≠ 1) relu agg x3 x4 bcast_S128_S1x128_1 bcast_S1x128_S50000x128_0_1 hc r c

/-- The reference's result, as a function of the arguments, is the layer of its aggregated features, the weights and
    the bias vector laid out as one row. -/
theorem hostLayer_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (hc : S128.ShapeCasts S1x128) :
    val_main_v14 (F := Ideal) x0 x1 x2 x3 x4 = layer (val_main_v9 (F := Ideal) x0 x1 x2) x3 (shapeCast S1x128 x4 hc) := by
  unfold val_main_v14 val_main_v13 val_main_v12 val_main_v11 val_main_v10 val_main_call0_v0 val_main_call0_cst
  generalize val_main_v9 (F := Ideal) x0 x1 x2 = agg
  funext j
  obtain ⟨r, c, rfl⟩ : ∃ (r : Fin 50000) (c : Fin 128), j = ix2 r c := ⟨j 0, j 1, eq_ix2 j⟩
  rw [layer_ix2]
  exact hostTail_ix2 agg x3 x4 hc r c

end Cert.GraphConv

end
-- ==== Proof.SameAggregation.lean ====
/-
  Both programs aggregate in the same way.

  The kernel's host prefix and the reference gather the source rows and sum them into the destination rows by the same
  operations with the same dimension numbers, so the aggregated features the kernel's region finds are, as a function of
  the feature array and the two index arrays, the reference's own intermediate array. Neither side is opened.
-/
import proofs.«104394_j44659069944171_1_alg».proof.Proof.RegionInputs
import proofs.«104394_j44659069944171_1_alg».proof.Proof.Gen.ReferenceIdeal.Read

noncomputable section

namespace Cert.GraphConv

open Idealize.ShloMosaic

/-- The kernel's aggregated features are the reference's. -/
theorem aggregated_eq_ref (x0 : (⟨Cert.KernelIdeal.S50000x128, .f32⟩ : BufTy).Contents (Elt Ideal))
    (x1 x2 : (⟨Cert.KernelIdeal.S800000, .i32⟩ : BufTy).Contents (Elt Ideal)) :
    aggregated x0 x1 x2 = Cert.ReferenceIdeal.Read.val_main_v9 (F := Ideal) x0 x1 x2 := rfl

end Cert.GraphConv

end
-- ==== Proof.lean ====
/-
  A graph-convolution layer: the kernel against its reference, equal on the extended reals.

  Both programs first aggregate on the host — gather the source nodes' feature rows along the 800000 edges and sum them
  into the 50000 destination rows — by the same operations, so the aggregated array agg is one and the same function of the
  feature array and the two index arrays on both sides. The reference then computes relu (agg · W + b) in one product;
  the kernel computes it ten blocks of 5000 rows at a time, each block's product taken after rounding the operands to a
  narrower format, which is the identity on the extended reals. Entry (r, c) of either result is

      relu ((∑ k, agg (r, k) * W (k, c)) + b c),

  the same finite sum in the same order, so no law of arithmetic beyond reading each side at an index is needed, and the
  precondition is never opened. The idealization rewrote nothing, so the kernel's idealized text is its own.
-/
import proofs.«104394_j44659069944171_1_alg».proof.Defs
import proofs.«104394_j44659069944171_1_alg».proof.Proof.Gen.Kernel
import proofs.«104394_j44659069944171_1_alg».proof.Proof.Gen.Kernel.Skeleton
import proofs.«104394_j44659069944171_1_alg».proof.Proof.Gen.Kernel.Launch
import proofs.«104394_j44659069944171_1_alg».proof.Proof.Gen.Kernel.Points
import proofs.«104394_j44659069944171_1_alg».proof.Proof.Gen.Kernel.Frame
import proofs.«104394_j44659069944171_1_alg».proof.Proof.Gen.KernelIdeal
import proofs.«104394_j44659069944171_1_alg».proof.Proof.Gen.KernelIdeal.Skeleton
import proofs.«104394_j44659069944171_1_alg».proof.Proof.Gen.KernelIdeal.Launch
import proofs.«104394_j44659069944171_1_alg».proof.Proof.Gen.KernelIdeal.Points
import proofs.«104394_j44659069944171_1_alg».proof.Proof.Gen.KernelIdeal.Frame
import proofs.«104394_j44659069944171_1_alg».proof.Proof.Gen.ReferenceIdeal
import proofs.«104394_j44659069944171_1_alg».proof.Proof.Gen.Pre_finite_inputs
import proofs.«104394_j44659069944171_1_alg».proof.Proof.Gen.KernelIdeal.Value
import proofs.«104394_j44659069944171_1_alg».proof.Proof.Gen.ReferenceIdeal.Run
import proofs.«104394_j44659069944171_1_alg».proof.Proof.Gen.ReferenceIdeal.Read
import proofs.«104394_j44659069944171_1_alg».proof.Proof.BlocksToArray
import proofs.«104394_j44659069944171_1_alg».proof.Proof.HostEntry
import proofs.«104394_j44659069944171_1_alg».proof.Proof.SameAggregation
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two results are one array: the layer of the common aggregated features, the weights and the bias as one row.
    The kernel's run ends there block by block; the reference's last stage, read at an index, is the same entry. -/
theorem algebraic : Cert.algebraic_KernelIdeal_ReferenceIdeal := by
  intro m ρ m' ρ' _ hagree
  refine ⟨_, Cert.GraphConv.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v14_eq,
    Cert.GraphConv.hostLayer_eq _ _ _ _ _ Cert.KernelIdeal.Gen.shapeCasts_S128_S1x128,
    ← Cert.GraphConv.aggregated_eq_ref]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
